-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x64x128x128 : Shape := ⟨5, ![2, 32, 64, 128, 128]⟩
abbrev S2x32 : Shape := ⟨2, ![2, 32]⟩
abbrev S_ : Shape := ⟨0, ![]⟩

class Facts : Prop where
  bcast_S_S2x32x64x128x128 : S_.BroadcastsInDim S2x32x64x128x128 (![] : Fin 0 → Fin S2x32x64x128x128.rank)
  reducesTo_S2x32x64x128x128_S_d0_1_2_3_4 : S2x32x64x128x128.ReducesTo [0, 1, 2, 3, 4] S_
  h_S_ : 0 < S_.numel

variable [Facts]

def fn {F : FTy → Type} [FloatOps F] (main_arg0 : FVec F S2x32x64x128x128 .f32) (main_arg1 : FVec F S2x32x64x128x128 .f32) (main_arg2 : IVec S2x32 32) : IVec S_ 1 :=
  let main_v0 : FVec F S2x32x64x128x128 .f32 := Host.absf main_arg0
  let main_cst : FVec F S_ .f32 := constant S_ .f32 0x7F800000#32
  let main_v1 : FVec F S2x32x64x128x128 .f32 := broadcastInDim S2x32x64x128x128 ![] bcast_S_S2x32x64x128x128 main_cst
  let main_v2 : IVec S2x32x64x128x128 1 := cmpf .olt main_v0 main_v1
  let main_c : IVec S_ 1 := constantI S_ 1 1#1
  let main_v3 : IVec S_ 1 := (fun x v => Host.reduce IntOp.andi x v reducesTo_S2x32x64x128x128_S_d0_1_2_3_4 h_S_) main_v2 main_c
  let main_v4 : FVec F S2x32x64x128x128 .f32 := Host.absf main_arg1
  let main_cst_0 : FVec F S_ .f32 := constant S_ .f32 0x7F800000#32
  let main_v5 : FVec F S2x32x64x128x128 .f32 := broadcastInDim S2x32x64x128x128 ![] bcast_S_S2x32x64x128x128 main_cst_0
  let main_v6 : IVec S2x32x64x128x128 1 := cmpf .olt main_v4 main_v5
  let main_c_1 : IVec S_ 1 := constantI S_ 1 1#1
  let main_v7 : IVec S_ 1 := (fun x v => Host.reduce IntOp.andi x v reducesTo_S2x32x64x128x128_S_d0_1_2_3_4 h_S_) main_v6 main_c_1
  let main_v8 : IVec S_ 1 := andi main_v3 main_v7
  main_v8
-- ==== Kernel.lean ====
abbrev S2x32x64x128x128 : Shape := ⟨5, ![2, 32, 64, 128, 128]⟩
abbrev S2x32 : Shape := ⟨2, ![2, 32]⟩
abbrev S4096x16384 : Shape := ⟨2, ![4096, 16384]⟩
abbrev S4096x1 : Shape := ⟨2, ![4096, 1]⟩
abbrev S128x16384 : Shape := ⟨2, ![128, 16384]⟩
abbrev S128x1 : Shape := ⟨2, ![128, 1]⟩
abbrev S128x2048 : Shape := ⟨2, ![128, 2048]⟩
abbrev S128 : Shape := ⟨1, ![128]⟩
abbrev S2x32x64 : Shape := ⟨3, ![2, 32, 64]⟩
abbrev S_ : Shape := ⟨0, ![]⟩
abbrev S2x32x64x1x1 : Shape := ⟨5, ![2, 32, 64, 1, 1]⟩

abbrev nBuf : Space → Nat
  | .hbm => 38
  | .vmem => 8
  | .smem => 0
  | _ => 0

abbrev bufTy : (tb : Table) → Fin (tcTables nBuf tb) → BufTy
  | .hbm, ⟨0, _⟩ => ⟨S2x32x64x128x128, .f32⟩
  | .hbm, ⟨1, _⟩ => ⟨S2x32x64x128x128, .f32⟩
  | .hbm, ⟨2, _⟩ => ⟨S2x32, .i32⟩
  | .hbm, ⟨3, _⟩ => ⟨S4096x16384, .f32⟩
  | .hbm, ⟨4, _⟩ => ⟨S4096x16384, .f32⟩
  | .hbm, ⟨5, _⟩ => ⟨S4096x1, .f32⟩
  | .hbm, ⟨6, _⟩ => ⟨S4096x1, .f32⟩
  | .hbm, ⟨7, _⟩ => ⟨S2x32x64, .f32⟩
  | .hbm, ⟨8, _⟩ => ⟨S2x32x64, .f32⟩
  | .hbm, ⟨9, _⟩ => ⟨S_, .f32⟩
  | .hbm, ⟨10, _⟩ => ⟨S2x32x64, .f32⟩
  | .hbm, ⟨11, _⟩ => ⟨S2x32x64, .f32⟩
  | .hbm, ⟨12, _⟩ => ⟨S_, .f32⟩
  | .hbm, ⟨13, _⟩ => ⟨S2x32x64, .f32⟩
  | .hbm, ⟨14, _⟩ => ⟨S2x32x64, .f32⟩
  | .hbm, ⟨15, _⟩ => ⟨S2x32x64, .f32⟩
  | .hbm, ⟨16, _⟩ => ⟨S_, .f32⟩
  | .hbm, ⟨17, _⟩ => ⟨S2x32x64, .f32⟩
  | .hbm, ⟨18, _⟩ => ⟨S2x32x64, .f32⟩
  | .hbm, ⟨19, _⟩ => ⟨S2x32x64x1x1, .f32⟩
  | .hbm, ⟨20, _⟩ => ⟨S2x32x64, .f32⟩
  | .hbm, ⟨21, _⟩ => ⟨S_, .f32⟩
  | .hbm, ⟨22, _⟩ => ⟨S2x32x64, .f32⟩
  | .hbm, ⟨23, _⟩ => ⟨S2x32x64, .i1⟩
  | .hbm, ⟨24, _⟩ => ⟨S2x32x64, .f32⟩
  | .hbm, ⟨25, _⟩ => ⟨S2x32x64, .f32⟩
  | .hbm, ⟨26, _⟩ => ⟨S_, .f32⟩
  | .hbm, ⟨27, _⟩ => ⟨S2x32, .f32⟩
  | .hbm, ⟨28, _⟩ => ⟨S_, .f32⟩
  | .hbm, ⟨29, _⟩ => ⟨S2x32, .f32⟩
  | .hbm, ⟨30, _⟩ => ⟨S2x32, .f32⟩
  | .hbm, ⟨31, _⟩ => ⟨S2x32, .f32⟩
  | .hbm, ⟨32, _⟩ => ⟨S2x32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S128x16384, .f32⟩
  | .local _ .vmem, ⟨1, _⟩ => ⟨S128x16384, .f32⟩
  | .local _ .vmem, ⟨2, _⟩ => ⟨S128x16384, .f32⟩
  | .local _ .vmem, ⟨3, _⟩ => ⟨S128x16384, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | _, _ => ⟨S2x32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2048_i32 : BitVec 32 := 2048#32
  let v2 : BitVec 32 := Scalar.muli c0_i32 c2048_i32
  v2
def k0_off1 (c0_i32 : BitVec 32) : Fin 2 → Nat :=
  let c0 : Index := 0#32
  let c2048_i32 : BitVec 32 := 2048#32
  let v2 : BitVec 32 := Scalar.muli c0_i32 c2048_i32
  let v3 : BitVec 32 := v2
  let v4 : Index := Scalar.indexCast v3
  ![0, v4.toNat]
def k0_mult2 : BitVec 32 :=
  let c1_i32 : BitVec 32 := 1#32
  let c2048_i32_4 : BitVec 32 := 2048#32
  let v19 : BitVec 32 := Scalar.muli c1_i32 c2048_i32_4
  v19
def k0_mult3 : BitVec 32 :=
  let c2_i32 : BitVec 32 := 2#32
  let c2048_i32_9 : BitVec 32 := 2048#32
  let v36 : BitVec 32 := Scalar.muli c2_i32 c2048_i32_9
  v36
def k0_mult4 : BitVec 32 :=
  let c3_i32 : BitVec 32 := 3#32
  let c2048_i32_14 : BitVec 32 := 2048#32
  let v53 : BitVec 32 := Scalar.muli c3_i32 c2048_i32_14
  v53
def k0_mult5 : BitVec 32 :=
  let c4_i32 : BitVec 32 := 4#32
  let c2048_i32_19 : BitVec 32 := 2048#32
  let v70 : BitVec 32 := Scalar.muli c4_i32 c2048_i32_19
  v70
def k0_mult6 : BitVec 32 :=
  let c5_i32 : BitVec 32 := 5#32
  let c2048_i32_24 : BitVec 32 := 2048#32
  let v87 : BitVec 32 := Scalar.muli c5_i32 c2048_i32_24
  v87
def k0_mult7 : BitVec 32 :=
  let c6_i32 : BitVec 32 := 6#32
  let c2048_i32_29 : BitVec 32 := 2048#32
  let v104 : BitVec 32 := Scalar.muli c6_i32 c2048_i32_29
  v104
def k0_mult8 : BitVec 32 :=
  let c7_i32 : BitVec 32 := 7#32
  let c2048_i32_34 : BitVec 32 := 2048#32
  let v121 : BitVec 32 := Scalar.muli c7_i32 c2048_i32_34
  v121
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x32x64x128x128_S4096x16384 : S2x32x64x128x128.ShapeCasts S4096x16384
  h_S128x2048 : 0 < S128x2048.numel
  shapeCasts_S128x2048_S128x2048 : S128x2048.ShapeCasts S128x2048
  reduces_S128x2048_S128 : S128x2048.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S4096x1_S2x32x64 : S4096x1.ShapeCasts S2x32x64
  bcast_S_S2x32x64 : S_.BroadcastsInDim S2x32x64 (![] : Fin 0 → Fin S2x32x64.rank)
  slices_S2x32x64x128x128_S2x32x64x1x1_0_0_0_0_0 : S2x32x64x128x128.Slices ![0, 0, 0, 0, 0] S2x32x64x1x1
  shapeCasts_S2x32x64x1x1_S2x32x64 : S2x32x64x1x1.ShapeCasts S2x32x64
  reducesTo_S2x32x64_S2x32_d2 : S2x32x64.ReducesTo [2] S2x32
  h_S_ : 0 < S_.numel
  reducesTo_S2x32_S_d0_1 : S2x32.ReducesTo [0, 1] S_
  hrank0 : 0 < grid0.rank
  k0_mult1_dvd : 2048 ∣ k0_mult1.toNat
  k0_off1_inb : ∀ (r : Fin 8), ∀ a, (k0_off1 (BitVec.ofNat 32 r.val)) a + S128x2048.size a ≤ S128x16384.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S4096x16384.size a
  hwx0_0 : ∀ i : grid0.Coords, EltTy.bits .f32 = 32 ∨ (Rect.block (s := S4096x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S4096x16384.size a
  hwx0_1 : ∀ i : grid0.Coords, EltTy.bits .f32 = 32 ∨ (Rect.block (s := S4096x16384) S128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)

variable [Facts₀]

abbrev win0_0 : Pipeline.Window sig grid0 :=
  Pipeline.Window.ofSpec (Memref.whole main_v0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x32x64x128x128 : Shape := ⟨5, ![2, 32, 64, 128, 128]⟩
abbrev S2x32 : Shape := ⟨2, ![2, 32]⟩
abbrev S_ : Shape := ⟨0, ![]⟩
abbrev S2x32x64x16384 : Shape := ⟨4, ![2, 32, 64, 16384]⟩
abbrev S2x32x64 : Shape := ⟨3, ![2, 32, 64]⟩
abbrev S2x32x64x1 : Shape := ⟨4, ![2, 32, 64, 1]⟩

abbrev nBuf : Space → Nat
  | .hbm => 50
  | .vmem => 0
  | .smem => 0
  | _ => 0

abbrev bufTy : (tb : Table) → Fin (tcTables nBuf tb) → BufTy
  | .hbm, ⟨0, _⟩ => ⟨S2x32x64x128x128, .f32⟩
  | .hbm, ⟨1, _⟩ => ⟨S2x32x64x128x128, .f32⟩
  | .hbm, ⟨2, _⟩ => ⟨S2x32, .i32⟩
  | .hbm, ⟨3, _⟩ => ⟨S2x32x64x128x128, .f32⟩
  | .hbm, ⟨4, _⟩ => ⟨S2x32x64x128x128, .f32⟩
  | .hbm, ⟨5, _⟩ => ⟨S_, .f32⟩
  | .hbm, ⟨6, _⟩ => ⟨S2x32x64x128x128, .f32⟩
  | .hbm, ⟨7, _⟩ => ⟨S2x32x64x128x128, .f32⟩
  | .hbm, ⟨8, _⟩ => ⟨S_, .f32⟩
  | .hbm, ⟨9, _⟩ => ⟨S2x32x64x128x128, .f32⟩
  | .hbm, ⟨10, _⟩ => ⟨S2x32x64x128x128, .f32⟩
  | .hbm, ⟨11, _⟩ => ⟨S2x32x64x16384, .f32⟩
  | .hbm, ⟨12, _⟩ => ⟨S2x32x64x16384, .f32⟩
  | .hbm, ⟨13, _⟩ => ⟨S2x32x64x16384, .f32⟩
  | .hbm, ⟨14, _⟩ => ⟨S_, .f32⟩
  | .hbm, ⟨15, _⟩ => ⟨S2x32x64, .f32⟩
  | .hbm, ⟨16, _⟩ => ⟨S_, .f32⟩
  | .hbm, ⟨17, _⟩ => ⟨S2x32x64, .f32⟩
  | .hbm, ⟨18, _⟩ => ⟨S_, .f32⟩
  | .hbm, ⟨19, _⟩ => ⟨S2x32x64, .f32⟩
  | .hbm, ⟨20, _⟩ => ⟨S2x32x64, .f32⟩
  | .hbm, ⟨21, _⟩ => ⟨S_, .f32⟩
  | .hbm, ⟨22, _⟩ => ⟨S2x32x64, .f32⟩
  | .hbm, ⟨23, _⟩ => ⟨S2x32x64, .f32⟩
  | .hbm, ⟨24, _⟩ => ⟨S_, .f32⟩
  | .hbm, ⟨25, _⟩ => ⟨S2x32x64, .f32⟩
  | .hbm, ⟨26, _⟩ => ⟨S2x32x64, .f32⟩
  | .hbm, ⟨27, _⟩ => ⟨S2x32x64, .f32⟩
  | .hbm, ⟨28, _⟩ => ⟨S_, .f32⟩
  | .hbm, ⟨29, _⟩ => ⟨S2x32x64, .f32⟩
  | .hbm, ⟨30, _⟩ => ⟨S2x32x64, .f32⟩
  | .hbm, ⟨31, _⟩ => ⟨S2x32x64x1, .f32⟩
  | .hbm, ⟨32, _⟩ => ⟨S2x32x64, .f32⟩
  | .hbm, ⟨33, _⟩ => ⟨S_, .f32⟩
  | .hbm, ⟨34, _⟩ => ⟨S2x32x64, .f32⟩
  | .hbm, ⟨35, _⟩ => ⟨S2x32x64, .i1⟩
  | .hbm, ⟨36, _⟩ => ⟨S2x32x64, .f32⟩
  | .hbm, ⟨37, _⟩ => ⟨S2x32x64, .f32⟩
  | .hbm, ⟨38, _⟩ => ⟨S_, .f32⟩
  | .hbm, ⟨39, _⟩ => ⟨S2x32, .f32⟩
  | .hbm, ⟨40, _⟩ => ⟨S_, .f32⟩
  | .hbm, ⟨41, _⟩ => ⟨S2x32, .f32⟩
  | .hbm, ⟨42, _⟩ => ⟨S2x32, .f32⟩
  | .hbm, ⟨43, _⟩ => ⟨S2x32, .f32⟩
  | .hbm, ⟨44, _⟩ => ⟨S2x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S2x32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S2x32x64x128x128 : S_.BroadcastsInDim S2x32x64x128x128 (![] : Fin 0 → Fin S2x32x64x128x128.rank)
  shapeCasts_S2x32x64x128x128_S2x32x64x16384 : S2x32x64x128x128.ShapeCasts S2x32x64x16384
  reducesTo_S2x32x64x16384_S2x32x64_d3 : S2x32x64x16384.ReducesTo [3] S2x32x64
  h_S_ : 0 < S_.numel
  bcast_S_S2x32x64 : S_.BroadcastsInDim S2x32x64 (![] : Fin 0 → Fin S2x32x64.rank)
  slices_S2x32x64x16384_S2x32x64x1_0_0_0_0 : S2x32x64x16384.Slices ![0, 0, 0, 0] S2x32x64x1
  shapeCasts_S2x32x64x1_S2x32x64 : S2x32x64x1.ShapeCasts S2x32x64
  reducesTo_S2x32x64_S2x32_d2 : S2x32x64.ReducesTo [2] S2x32
  reducesTo_S2x32_S_d0_1 : S2x32.ReducesTo [0, 1] S_

variable [Facts₀]

class Facts : Prop extends Facts₀ where

variable [Facts]
-- ==== Proof.KernelBody.lean ====
/-
  What one grid point's body leaves in its two output blocks, as pure terms of its two input blocks.

  The body walks its 128 × 16384 input blocks in eight runs of 2048 columns. For each run it takes σ of the prediction
  run, multiplies and adds the target run, sums each of the two results along the columns, and adds the two column sums
  onto two 128 × 1 accumulators that start at +0.0; at the end each accumulator is stored whole. So each output block is
  ONE covering store, and what it holds is the store's value: the printed arithmetic applied to the sixteen runs read
  from the input blocks.
-/
import proofs.«115125_j5471788335563_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.DiceBody

open Cert.KernelIdeal Cert.KernelIdeal.Gen

variable {F : FTy → Type} [FloatOps F]

theorem zero_offsets : (![0, 0] : Fin 2 → Nat) = fun _ => 0 := funext fun a => by fin_cases a <;> rfl

/-- A run of 2048 columns starting at column `o` lies inside a 128 × 16384 block. -/
theorem run_inside (o : ℕ) (h : o + 2048 ≤ 16384) :
    ∀ a, (![0, o] : Fin 2 → ℕ) a + S128x2048.size a ≤ S128x16384.size a := fun a =>
  match a with
  | ⟨0, _⟩ => by show 0 + 128 ≤ 128; omega
  | ⟨1, _⟩ => by show o + 2048 ≤ 16384; exact h

/-- The run of 2048 columns of a block starting at column `o`. -/
def cols (X : Vec F S128x16384 .f32) (o : ℕ) (h : o + 2048 ≤ 16384) : Vec F S128x2048 .f32 :=
  View.ld X (Rect.unit (s := S128x16384) ![0, o] S128x2048.size (run_inside o h))

/-- The overlap block of a point: the printed arithmetic over the sixteen runs. -/
def overlapBlock (x0 x1 : Vec F S128x16384 .f32) : Vec F S128x1 .f32 :=
  k0_pay1
    (k0_pay21
      (k0_pay15
        (k0_pay7 (cols x0 0 (by omega)) (cols x1 0 (by omega)) (cols x0 2048 (by omega)) (cols x1 2048 (by omega)))
        (k0_pay9 (cols x0 4096 (by omega))) (cols x1 4096 (by omega))
        (cols x0 6144 (by omega)) (cols x1 6144 (by omega)) (cols x0 8192 (by omega)) (cols x1 8192 (by omega)))
      (cols x0 10240 (by omega)) (cols x1 10240 (by omega)) (cols x0 12288 (by omega)) (cols x1 12288 (by omega)))
    (k0_pay25 (cols x0 14336 (by omega)) (cols x1 14336 (by omega)))

/-- The joint-mass block of a point. -/
def massBlock (x0 x1 : Vec F S128x16384 .f32) : Vec F S128x1 .f32 :=
  k0_pay2
    (k0_pay22
      (k0_pay16
        (k0_pay8 (cols x0 0 (by omega)) (cols x1 0 (by omega)) (cols x0 2048 (by omega)) (cols x1 2048 (by omega)))
        (k0_pay9 (cols x0 4096 (by omega))) (cols x1 4096 (by omega))
        (cols x0 6144 (by omega)) (cols x1 6144 (by omega)) (cols x0 8192 (by omega)) (cols x1 8192 (by omega)))
      (cols x0 10240 (by omega)) (cols x1 10240 (by omega)) (cols x0 12288 (by omega)) (cols x1 12288 (by omega)))
    (k0_pay23 (cols x0 14336 (by omega))) (k0_pay24 (cols x1 14336 (by omega)))

/-- The first output block after the body: its one covering store's value. -/
theorem out2_eq (c : Dev nD) (i : grid0.Coords) (a1 : Memref sig .tc .vmem S128x16384 .f32) (h1 : a1.IsWhole)
    (a2 : Memref sig .tc .vmem S128x16384 .f32) (h2 : a2.IsWhole) (a3 : Memref sig .tc .vmem S128x1 .f32) (h3 : a3.IsWhole)
    (a4 : Memref sig .tc .vmem S128x1 .f32) (h4 : a4.IsWhole) (x0 x1 : Vec F S128x16384 .f32) :
    out0_A_2 c i a1 h1 a2 h2 a3 h3 a4 h4 x0 x1 = overlapBlock x0 x1 := by
  unfold out0_A_2
  rw [View.read_writes_eq_canon _ _ _ (cover0_A_2 c i a1 h1 a2 h2 a3 h3 a4 h4 x0 x1)]
  unfold kernelRun0_A
  dsimp only
  sl_unfold_words
  rw [View.canon_unit_zero (S := S128x1) zero_offsets]
  simp only [View.readAt_eq_ld, h1.read_unread, h2.read_unread]
  rfl

/-- The second output block after the body. -/
theorem out3_eq (c : Dev nD) (i : grid0.Coords) (a1 : Memref sig .tc .vmem S128x16384 .f32) (h1 : a1.IsWhole)
    (a2 : Memref sig .tc .vmem S128x16384 .f32) (h2 : a2.IsWhole) (a3 : Memref sig .tc .vmem S128x1 .f32) (h3 : a3.IsWhole)
    (a4 : Memref sig .tc .vmem S128x1 .f32) (h4 : a4.IsWhole) (x0 x1 : Vec F S128x16384 .f32) :
    out0_A_3 c i a1 h1 a2 h2 a3 h3 a4 h4 x0 x1 = massBlock x0 x1 := by
  unfold out0_A_3
  rw [View.read_writes_eq_canon _ _ _ (cover0_A_3 c i a1 h1 a2 h2 a3 h3 a4 h4 x0 x1)]
  unfold kernelRun0_A
  dsimp only
  sl_unfold_words
  rw [View.canon_unit_zero (S := S128x1) zero_offsets]
  simp only [View.readAt_eq_ld, h1.read_unread, h2.read_unread]
  rfl

end Cert.KernelIdeal.DiceBody

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibBlockSum.lean ====
/-
  Two general facts used to put a blocked contraction back together.

  A sum over nb · bs consecutive naturals is the sum, over the nb blocks, of the bs terms of each block; stated with
  the terms of a block indexed by Fin bs and the whole range by Fin (nb · bs), as matrix products come. And a
  rank-2 array extended by zero to all pairs of naturals, so that offsets computed in ℕ need no bound proofs while
  they are being rearranged: inside the extents the extension is the array.
-/
import Mathlib.Algebra.BigOperators.Fin
import Mathlib.Algebra.BigOperators.Intervals
import Idealize.ShloMosaic.Lib.ValueIdx

noncomputable section

open scoped BigOperators

namespace Cert.LibBlockSum

open Idealize.ShloMosaic Idealize.ShloMosaic.ValueIdx

/-- Block by block over ranges: Σ_{s < nb} Σ_{kk < bs} g (bs · s + kk) = Σ_{k < nb · bs} g k. -/
theorem sum_range_blocks {β : Type*} [AddCommMonoid β] (g : ℕ → β) (bs : ℕ) :
    ∀ nb : ℕ, ∑ s ∈ Finset.range nb, ∑ kk ∈ Finset.range bs, g (bs * s + kk) = ∑ k ∈ Finset.range (nb * bs), g k
  | 0 => by simp
  | nb + 1 => by
    rw [Finset.sum_range_succ, sum_range_blocks g bs nb, Nat.succ_mul, Finset.sum_range_add, Nat.mul_comm bs nb]

/-- The same with each block's terms indexed by Fin bs and the whole by Fin (nb · bs). -/
theorem sum_fin_blocks {β : Type*} [AddCommMonoid β] (g : ℕ → β) (nb bs : ℕ) :
    ∑ s ∈ Finset.range nb, ∑ kk : Fin bs, g (bs * s + kk.val) = ∑ k : Fin (nb * bs), g k.val := by
  rw [Fin.sum_univ_eq_sum_range g (nb * bs), ← sum_range_blocks g bs nb]
  exact Finset.sum_congr rfl fun s _ => Fin.sum_univ_eq_sum_range (fun kk => g (bs * s + kk)) bs

/-- The same with the total count named: n = nb · bs. -/
theorem sum_fin_blocks_eq {β : Type*} [AddCommMonoid β] (g : ℕ → β) (nb bs n : ℕ) (hn : nb * bs = n) :
    ∑ s ∈ Finset.range nb, ∑ kk : Fin bs, g (bs * s + kk.val) = ∑ k : Fin n, g k.val := by
  subst hn
  exact sum_fin_blocks g nb bs

/-- A rank-2 array extended by zero to all of ℕ × ℕ. -/
def ext2 {α : Type*} [Zero α] {n0 n1 : ℕ} (A : (⟨2, ![n0, n1]⟩ : Shape).Idx → α) (r k : ℕ) : α :=
  if h : r < n0 ∧ k < n1 then A (ix2 ⟨r, h.1⟩ ⟨k, h.2⟩) else 0

/-- Inside the extents the extension is the array. -/
theorem ext2_of_lt {α : Type*} [Zero α] {n0 n1 : ℕ} (A : (⟨2, ![n0, n1]⟩ : Shape).Idx → α) {r k : ℕ}
    (hr : r < n0) (hk : k < n1) : ext2 A r k = A (ix2 ⟨r, hr⟩ ⟨k, hk⟩) := dif_pos ⟨hr, hk⟩

/-- At the coordinates of an index the extension is the array at that index. -/
theorem ext2_ix {α : Type*} [Zero α] {n0 n1 : ℕ} (A : (⟨2, ![n0, n1]⟩ : Shape).Idx → α) (p : Fin n0) (k : Fin n1) :
    ext2 A p.val k.val = A (ix2 p k) := ext2_of_lt A p.isLt k.isLt

end Cert.LibBlockSum

end
-- ==== Proof.DiceSums.lean ====
/-
  The two per-slice sums of the dice loss, as functions of the two input volumes, and the laws that let a sum be taken
  in another arrangement.

  A slice is one (batch, organ, depth) triple; it holds 128 · 128 = 16384 numbers, entry k of slice (b, c, d) sitting at
  row k / 128 and column k % 128. With σ the logistic function 1 / (1 + e⁻ˣ) on the extended reals, the two sums are

      inter (b, c, d) = 0 + Σₖ σ(p k) · t k            (the overlap of prediction and target)
      total (b, c, d) = 0 + Σₖ (σ(p k) + t k)          (their joint mass)

  where p k and t k are the slice's entries of the prediction and the target, and the leading 0 is the word +0.0.
  Both laws below use only that addition on the extended reals is commutative and associative, so neither needs the
  entries to be finite: a sum of 16384 consecutive terms is the sum of its eight runs of 2048 terms taken in order, and
  the sum of a termwise sum is the sum of the two sums.
-/
import proofs.«115125_j5471788335563_2_alg».proof.Proof.LibBlockSum
import Idealize.ShloMosaic.PureOps.Ideal.Laws
import Idealize.ShloMosaic.Lib.ValueIdx

noncomputable section

open scoped BigOperators

namespace Cert.Dice

open Idealize.ShloMosaic Idealize.ShloMosaic.ValueIdx

/-- The word +0.0 as an extended real. -/
abbrev zeroWord : EReal := Ideal.ofBits .f32 0x00000000#32

/-- The word of 1.0 reads as the extended real 1. -/
theorem ofBits_one : Ideal.ofBits .f32 0x3F800000#32 = 1 := by
  simp [Ideal.ofBits, Ideal.ieee, -EReal.coe_mul]; norm_num

/-- The place of entry `k` of slice `(b, c, d)` in a volume: row `k / 128`, column `k % 128`. -/
def at5 (b : Fin 2) (c : Fin 32) (d : Fin 64) (k : Fin 16384) : (⟨5, ![2, 32, 64, 128, 128]⟩ : Shape).Idx :=
  ix5 b c d ⟨k.val / 128, by have := k.isLt; omega⟩ ⟨k.val % 128, by omega⟩

/-- The overlap sum of a slice. -/
def inter (P T : (⟨5, ![2, 32, 64, 128, 128]⟩ : Shape).Idx → EReal) (b : Fin 2) (c : Fin 32) (d : Fin 64) : EReal :=
  zeroWord + ∑ k : Fin 16384, Ideal.logistic (P (at5 b c d k)) * T (at5 b c d k)

/-- The joint mass of a slice. -/
def total (P T : (⟨5, ![2, 32, 64, 128, 128]⟩ : Shape).Idx → EReal) (b : Fin 2) (c : Fin 32) (d : Fin 64) : EReal :=
  zeroWord + ∑ k : Fin 16384, (Ideal.logistic (P (at5 b c d k)) + T (at5 b c d k))

/-- Eight consecutive runs of 2048 terms, added one after the other onto a start value, are the start value plus the sum
    of all 16384 terms. -/
theorem eight_runs (g : ℕ → EReal) (z : EReal) :
    z + ∑ l : Fin 2048, g (0 + l.val) + ∑ l : Fin 2048, g (2048 + l.val) + ∑ l : Fin 2048, g (4096 + l.val)
        + ∑ l : Fin 2048, g (6144 + l.val) + ∑ l : Fin 2048, g (8192 + l.val) + ∑ l : Fin 2048, g (10240 + l.val)
        + ∑ l : Fin 2048, g (12288 + l.val) + ∑ l : Fin 2048, g (14336 + l.val)
      = z + ∑ k : Fin 16384, g k.val := by
  rw [← Cert.LibBlockSum.sum_fin_blocks_eq g 8 2048 16384 rfl]
  simp only [Finset.sum_range_succ, Finset.sum_range_zero, zero_add, add_assoc]
  rfl

/-- The sum of termwise sums, started from +0.0, is the sum of the two sums each started from +0.0. -/
theorem split_total {ι : Type*} [Fintype ι] (a b : ι → EReal) :
    zeroWord + ∑ k, (a k + b k) = (zeroWord + ∑ k, a k) + (zeroWord + ∑ k, b k) := by
  rw [zeroWord, Ideal.ofBits_zero_f32, zero_add, zero_add, zero_add, Finset.sum_add_distrib]

end Cert.Dice

end
-- ==== Proof.KernelBlockValue.lean ====
/-
  The two output blocks of a grid point, entry by entry, on the extended reals.

  Row p of the overlap block is +0.0 plus, one run after the other, the eight column sums Σ_l σ(x (p, o + l)) · y (p, o + l)
  over the runs o = 0, 2048, …, 14336 of the point's input blocks x and y; row p of the joint-mass block is the same with
  σ(x) + y in place of σ(x) · y. Eight consecutive runs of 2048 make up the 16384 columns, so each row is +0.0 plus ONE
  sum over all columns of the block.
-/
import proofs.«115125_j5471788335563_2_alg».proof.Proof.KernelBody
import proofs.«115125_j5471788335563_2_alg».proof.Proof.LibColumns
import proofs.«115125_j5471788335563_2_alg».proof.Proof.DiceSums

noncomputable section

open scoped BigOperators

open Idealize.ShloMosaic Idealize.ShloMosaic.TcCoe Idealize.SL.Sem

namespace Cert.KernelIdeal.DiceBody

open Cert.KernelIdeal Cert.KernelIdeal.Gen Idealize.ShloMosaic.ValueIdx Cert.Dice

/-- One accumulation step at row `p`: the accumulator's entry plus the run's column sum. -/
theorem step (acc : FVec Ideal S128x1 .f32) (v : FVec Ideal S128x2048 .f32)
    (h1 : S128x2048.Reduces [1] S128) (h2 : FKind.Formats FTy.f32)
    (h3 : (0x00000000#32 : BitVec FTy.f32.bits) = FKind.add.neutral .f32 h2) (h4 : S128.ShapeCasts S128x1) (p : Fin 128) :
    addf acc (shapeCast S128x1 (multiReduction .add [1] S128 v 0x00000000#32 h1 h2 h3) h4) (ix2 p (0 : Fin 1))
      = acc (ix2 p 0) + ∑ l : Fin 2048, v (ix2 p l) := by
  show acc (ix2 p 0) + shapeCast S128x1 (multiReduction .add [1] S128 v 0x00000000#32 h1 h2 h3) h4 (ix2 p (0 : Fin 1)) = _
  refine congrArg (acc (ix2 p 0) + ·) ?_
  refine (Cert.LibColumns.shapeCast_a_a1_apply _ h4 p 0).trans ?_
  exact Cert.LibColumns.rowSum_apply v _ h1 h2 h3 p

/-- Row `p`'s column sum of σ(a) · b over one run, and of σ(a) + b. -/
def prodRun (a b : Vec Ideal S128x2048 .f32) (p : Fin 128) : EReal :=
  ∑ l : Fin 2048, Ideal.logistic (a (ix2 p l)) * b (ix2 p l)
def sumRun (a b : Vec Ideal S128x2048 .f32) (p : Fin 128) : EReal :=
  ∑ l : Fin 2048, (Ideal.logistic (a (ix2 p l)) + b (ix2 p l))

/-- A step whose run is σ(a) · b. -/
theorem step_prod (acc : FVec Ideal S128x1 .f32) (a b : Vec Ideal S128x2048 .f32)
    (hs hs' : S128x2048.ShapeCasts S128x2048) (h1 : S128x2048.Reduces [1] S128) (h2 : FKind.Formats FTy.f32)
    (h3 : (0x00000000#32 : BitVec FTy.f32.bits) = FKind.add.neutral .f32 h2) (h4 : S128.ShapeCasts S128x1) (p : Fin 128) :
    addf acc (shapeCast S128x1 (multiReduction .add [1] S128
        (mulf (logistic (shapeCast S128x2048 a hs)) (shapeCast S128x2048 b hs')) 0x00000000#32 h1 h2 h3) h4) (ix2 p (0 : Fin 1))
      = acc (ix2 p 0) + prodRun a b p := by
  rw [step, shapeCast_self, shapeCast_self]
  rfl

/-- A step whose run is σ(a) + b. -/
theorem step_sum (acc : FVec Ideal S128x1 .f32) (a b : Vec Ideal S128x2048 .f32)
    (hs hs' : S128x2048.ShapeCasts S128x2048) (h1 : S128x2048.Reduces [1] S128) (h2 : FKind.Formats FTy.f32)
    (h3 : (0x00000000#32 : BitVec FTy.f32.bits) = FKind.add.neutral .f32 h2) (h4 : S128.ShapeCasts S128x1) (p : Fin 128) :
    addf acc (shapeCast S128x1 (multiReduction .add [1] S128
        (addf (logistic (shapeCast S128x2048 a hs)) (shapeCast S128x2048 b hs')) 0x00000000#32 h1 h2 h3) h4) (ix2 p (0 : Fin 1))
      = acc (ix2 p 0) + sumRun a b p := by
  rw [step, shapeCast_self, shapeCast_self]
  rfl

/-! ### The overlap block: the four stretches of the printed arithmetic, each as steps -/

theorem overlap_runs01 (a0 b0 a1 b1 : Vec Ideal S128x2048 .f32) (p : Fin 128) :
    k0_pay7 (F := Ideal) a0 b0 a1 b1 (ix2 p (0 : Fin 1)) = zeroWord + prodRun a0 b0 p + prodRun a1 b1 p := by
  refine (step_prod _ a1 b1 _ _ _ _ _ _ p).trans ?_
  refine congrArg (· + prodRun a1 b1 p) ?_
  exact step_prod _ a0 b0 _ _ _ _ _ _ p

theorem overlap_runs234 (acc : FVec Ideal S128x1 .f32) (a2 b2 a3 b3 a4 b4 : Vec Ideal S128x2048 .f32) (p : Fin 128) :
    k0_pay15 (F := Ideal) acc (k0_pay9 a2) b2 a3 b3 a4 b4 (ix2 p (0 : Fin 1))
      = acc (ix2 p 0) + prodRun a2 b2 p + prodRun a3 b3 p + prodRun a4 b4 p := by
  refine (step_prod _ a4 b4 _ _ _ _ _ _ p).trans ?_
  refine congrArg (· + prodRun a4 b4 p) ?_
  refine (step_prod _ a3 b3 _ _ _ _ _ _ p).trans ?_
  refine congrArg (· + prodRun a3 b3 p) ?_
  exact step_prod _ a2 b2 _ _ _ _ _ _ p

theorem overlap_runs56 (acc : FVec Ideal S128x1 .f32) (a5 b5 a6 b6 : Vec Ideal S128x2048 .f32) (p : Fin 128) :
    k0_pay21 (F := Ideal) acc a5 b5 a6 b6 (ix2 p (0 : Fin 1)) = acc (ix2 p 0) + prodRun a5 b5 p + prodRun a6 b6 p := by
  refine (step_prod _ a6 b6 _ _ _ _ _ _ p).trans ?_
  refine congrArg (· + prodRun a6 b6 p) ?_
  exact step_prod _ a5 b5 _ _ _ _ _ _ p

theorem overlap_run7 (acc : FVec Ideal S128x1 .f32) (a7 b7 : Vec Ideal S128x2048 .f32) (p : Fin 128) :
    k0_pay1 (F := Ideal) acc (k0_pay25 a7 b7) (ix2 p (0 : Fin 1)) = acc (ix2 p 0) + prodRun a7 b7 p :=
  step_prod _ a7 b7 _ _ _ _ _ _ p

/-! ### The joint-mass block, the same way -/

theorem mass_runs01 (a0 b0 a1 b1 : Vec Ideal S128x2048 .f32) (p : Fin 128) :
    k0_pay8 (F := Ideal) a0 b0 a1 b1 (ix2 p (0 : Fin 1)) = zeroWord + sumRun a0 b0 p + sumRun a1 b1 p := by
  refine (step_sum _ a1 b1 _ _ _ _ _ _ p).trans ?_
  refine congrArg (· + sumRun a1 b1 p) ?_
  exact step_sum _ a0 b0 _ _ _ _ _ _ p

theorem mass_runs234 (acc : FVec Ideal S128x1 .f32) (a2 b2 a3 b3 a4 b4 : Vec Ideal S128x2048 .f32) (p : Fin 128) :
    k0_pay16 (F := Ideal) acc (k0_pay9 a2) b2 a3 b3 a4 b4 (ix2 p (0 : Fin 1))
      = acc (ix2 p 0) + sumRun a2 b2 p + sumRun a3 b3 p + sumRun a4 b4 p := by
  refine (step_sum _ a4 b4 _ _ _ _ _ _ p).trans ?_
  refine congrArg (· + sumRun a4 b4 p) ?_
  refine (step_sum _ a3 b3 _ _ _ _ _ _ p).trans ?_
  refine congrArg (· + sumRun a3 b3 p) ?_
  exact step_sum _ a2 b2 _ _ _ _ _ _ p

theorem mass_runs56 (acc : FVec Ideal S128x1 .f32) (a5 b5 a6 b6 : Vec Ideal S128x2048 .f32) (p : Fin 128) :
    k0_pay22 (F := Ideal) acc a5 b5 a6 b6 (ix2 p (0 : Fin 1)) = acc (ix2 p 0) + sumRun a5 b5 p + sumRun a6 b6 p := by
  refine (step_sum _ a6 b6 _ _ _ _ _ _ p).trans ?_
  refine congrArg (· + sumRun a6 b6 p) ?_
  exact step_sum _ a5 b5 _ _ _ _ _ _ p

theorem mass_run7 (acc : FVec Ideal S128x1 .f32) (a7 b7 : Vec Ideal S128x2048 .f32) (p : Fin 128) :
    k0_pay2 (F := Ideal) acc (k0_pay23 a7) (k0_pay24 b7) (ix2 p (0 : Fin 1)) = acc (ix2 p 0) + sumRun a7 b7 p :=
  step_sum _ a7 b7 _ _ _ _ _ _ p

/-! ### A run read at an index, and the eight runs put together -/

/-- Entry `(p, l)` of the run starting at column `o` is the block's entry `(p, o + l)`. -/
theorem cols_at (X : Vec Ideal S128x16384 .f32) (o : ℕ) (h : o + 2048 ≤ 16384) (p : Fin 128) (l : Fin 2048) :
    cols X o h (ix2 p l) = X (ix2 p ⟨o + l.val, by have := l.isLt; omega⟩) := by
  unfold cols
  show X _ = X _
  refine congrArg X ?_
  funext a
  apply Fin.ext
  match a with
  | ⟨0, _⟩ => show 0 + 1 * p.val = p.val; omega
  | ⟨1, _⟩ => show o + 1 * l.val = o + l.val; omega

/-- A run's column sum of σ(x) · y, with the block's entries named by their column number. -/
theorem prodRun_cols (x0 x1 : Vec Ideal S128x16384 .f32) (o : ℕ) (h : o + 2048 ≤ 16384) (p : Fin 128) :
    prodRun (cols x0 o h) (cols x1 o h) p
      = ∑ l : Fin 2048, Cert.LibBlockSum.ext2 (fun j : S128x16384.Idx => Ideal.logistic (x0 j) * x1 j) p.val (o + l.val) := by
  unfold prodRun
  refine Finset.sum_congr rfl fun l _ => ?_
  rw [cols_at, cols_at, Cert.LibBlockSum.ext2_of_lt _ p.isLt (by have := l.isLt; omega)]

theorem sumRun_cols (x0 x1 : Vec Ideal S128x16384 .f32) (o : ℕ) (h : o + 2048 ≤ 16384) (p : Fin 128) :
    sumRun (cols x0 o h) (cols x1 o h) p
      = ∑ l : Fin 2048, Cert.LibBlockSum.ext2 (fun j : S128x16384.Idx => Ideal.logistic (x0 j) + x1 j) p.val (o + l.val) := by
  unfold sumRun
  refine Finset.sum_congr rfl fun l _ => ?_
  rw [cols_at, cols_at, Cert.LibBlockSum.ext2_of_lt _ p.isLt (by have := l.isLt; omega)]

/-- Row `p` of the overlap block: +0.0 plus the sum over all 16384 columns of σ(x) · y. -/
theorem overlapBlock_at (x0 x1 : Vec Ideal S128x16384 .f32) (p : Fin 128) :
    overlapBlock (F := Ideal) x0 x1 (ix2 p (0 : Fin 1))
      = zeroWord + ∑ k : Fin 16384, Ideal.logistic (x0 (ix2 p k)) * x1 (ix2 p k) := by
  unfold overlapBlock
  rw [overlap_run7, overlap_runs56, overlap_runs234, overlap_runs01]
  simp only [prodRun_cols]
  rw [eight_runs]
  exact congrArg (zeroWord + ·) (Finset.sum_congr rfl fun k _ => Cert.LibBlockSum.ext2_ix _ p k)

/-- Row `p` of the joint-mass block: +0.0 plus the sum over all 16384 columns of σ(x) + y. -/
theorem massBlock_at (x0 x1 : Vec Ideal S128x16384 .f32) (p : Fin 128) :
    massBlock (F := Ideal) x0 x1 (ix2 p (0 : Fin 1))
      = zeroWord + ∑ k : Fin 16384, (Ideal.logistic (x0 (ix2 p k)) + x1 (ix2 p k)) := by
  unfold massBlock
  rw [mass_run7, mass_runs56, mass_runs234, mass_runs01]
  simp only [sumRun_cols]
  rw [eight_runs]
  exact congrArg (zeroWord + ·) (Finset.sum_congr rfl fun k _ => Cert.LibBlockSum.ext2_ix _ p k)

end Cert.KernelIdeal.DiceBody

end
-- ==== Proof.KernelArrays.lean ====
/-
  The two arrays the kernel's region leaves, as whole-array functions of the two recast input volumes.

  The region works on the volumes recast as 4096 × 16384 matrices (one row per slice) and has 32 grid points; point t
  reads rows 128 t … 128 t + 127 of both matrices and writes rows 128 t … 128 t + 127 of the two 4096 × 1 results. So
  row r of the first result is +0.0 plus the sum over the 16384 columns k of σ(A (r, k)) · B (r, k), and row r of the
  second is the same with σ(A) + B: every row is written by exactly the point r / 128, and a point's block is the
  restriction of that one function to its rows.
-/
import proofs.«115125_j5471788335563_2_alg».proof.Proof.KernelBlockValue

noncomputable section

open scoped BigOperators

open Idealize.ShloMosaic Idealize.ShloMosaic.TcCoe Idealize.SL.Sem
open Idealize.ShloMosaic.Pipeline (Dat)

namespace Cert.KernelIdeal.DiceArrays

open Cert.KernelIdeal Cert.KernelIdeal.Gen Idealize.ShloMosaic.ValueIdx Cert.Dice Cert.KernelIdeal.DiceBody

variable (m : (ℓ : Loc nD τ sig) → Buf (Elt Ideal) ℓ)

/-- The row of a 4096 × 1 index. -/
def rowOf (i : S4096x1.Idx) : Fin 4096 := ⟨(i 0).val, idx2_lt0 i⟩

/-- Row sums of σ(A) · B, and of σ(A) + B, of two 4096 × 16384 matrices, as 4096 × 1 columns. -/
def rowOverlap (A B : S4096x16384.Idx → EReal) : S4096x1.Idx → EReal := fun i =>
  zeroWord + ∑ k : Fin 16384, Ideal.logistic (A (ix2 (rowOf i) k)) * B (ix2 (rowOf i) k)
def rowMass (A B : S4096x16384.Idx → EReal) : S4096x1.Idx → EReal := fun i =>
  zeroWord + ∑ k : Fin 16384, (Ideal.logistic (A (ix2 (rowOf i) k)) + B (ix2 (rowOf i) k))

/-- The printed index maps over the grid: every window's block row is the point's number, its block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of point `t`'s block of the first matrix is the matrix's entry `(128 t + p, k)`. -/
theorem in0_at (c : Dev nD) (t : Fin cfg0.N) (p : Fin 128) (k : Fin 16384) (r : Fin 4096) (hr : r.val = t.val * 128 + p.val) :
    iblk m c 0 t (ix2 p k) = V m c main_v0 (ix2 r k) := by
  obtain ⟨e0, e1, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 2) * 128 + 1 * p.val = r.val; omega
  | ⟨1, _⟩ => show win0_0.index t (1 : Fin 2) * 16384 + 1 * k.val = k.val; omega

/-- The same for the second matrix. -/
theorem in1_at (c : Dev nD) (t : Fin cfg0.N) (p : Fin 128) (k : Fin 16384) (r : Fin 4096) (hr : r.val = t.val * 128 + p.val) :
    iblk m c 1 t (ix2 p k) = V m c main_v1 (ix2 r k) := by
  obtain ⟨-, -, e0, e1, -⟩ := idx_facts t
  unfold iblk
  rw [View.read_apply]
  show V m c main_v1 _ = V m c main_v1 _
  refine congrArg (V m c main_v1) ?_
  funext a
  apply Fin.ext
  match a with
  | ⟨0, _⟩ => show win0_1.index t (0 : Fin 2) * 128 + 1 * p.val = r.val; omega
  | ⟨1, _⟩ => show win0_1.index t (1 : Fin 2) * 16384 + 1 * k.val = k.val; omega

/-- A block's entry at any index of the block: its row's sum (the block has one column). -/
theorem overlapBlock_row (x0 x1 : Vec Ideal S128x16384 .f32) (y : S128x1.Idx) :
    overlapBlock (F := Ideal) x0 x1 y
      = zeroWord + ∑ k : Fin 16384, Ideal.logistic (x0 (ix2 (⟨(y 0).val, idx2_lt0 y⟩ : Fin 128) k)) * x1 (ix2 (⟨(y 0).val, idx2_lt0 y⟩ : Fin 128) k) := by
  obtain ⟨p, z, rfl⟩ : ∃ (p : Fin 128) (z : Fin 1), y = ix2 p z := ⟨y 0, y 1, eq_ix2 y⟩
  obtain rfl : z = 0 := Subsingleton.elim _ _
  exact overlapBlock_at x0 x1 p

theorem massBlock_row (x0 x1 : Vec Ideal S128x16384 .f32) (y : S128x1.Idx) :
    massBlock (F := Ideal) x0 x1 y
      = zeroWord + ∑ k : Fin 16384, (Ideal.logistic (x0 (ix2 (⟨(y 0).val, idx2_lt0 y⟩ : Fin 128) k)) + x1 (ix2 (⟨(y 0).val, idx2_lt0 y⟩ : Fin 128) k)) := by
  obtain ⟨p, z, rfl⟩ : ∃ (p : Fin 128) (z : Fin 1), y = ix2 p z := ⟨y 0, y 1, eq_ix2 y⟩
  obtain rfl : z = 0 := Subsingleton.elim _ _
  exact massBlock_at x0 x1 p

/-- What point `t` writes back to the first result: its rows of the row-overlap column. -/
theorem flushed2_eq (c : Dev nD) (t : Fin cfg0.N) :
    (dats m 0 c).flushed 2 t = ((cfg0.win 2).blk t).view.read (Elt Ideal) (rowOverlap (V m c main_v0) (V m c main_v1)) := by
  show (cfg0.win 2).cut (grid0.coords t) ((dats m 0 c).after 2 t) = _
  rw [after0_2]
  unfold outsAt0
  dsimp only
  rw [out2_eq]
  refine funext fun (j : S128x1.Idx) => ?_
  show overlapBlock (iblk m c 0 t) (iblk m c 1 t) j = rowOverlap (V m c main_v0) (V m c main_v1) (((cfg0.win 2).blk t).view.emb j)
  refine (overlapBlock_row (iblk m c 0 t) (iblk m c 1 t) j).trans ?_
  unfold rowOverlap
  refine congrArg (zeroWord + ·) (Finset.sum_congr rfl fun k _ => ?_)
  obtain ⟨-, -, -, -, e0, e1, -⟩ := idx_facts t
  have hr : (rowOf (((cfg0.win 2).blk t).view.emb j)).val = t.val * 128 + (⟨(j 0).val, idx2_lt0 j⟩ : Fin 128).val := by
    show win0_2.index t (0 : Fin 2) * 128 + 1 * (j 0).val = t.val * 128 + (j 0).val
    omega
  rw [in0_at m c t _ k _ hr, in1_at m c t _ k _ hr]

/-- What point `t` writes back to the second result. -/
theorem flushed3_eq (c : Dev nD) (t : Fin cfg0.N) :
    (dats m 0 c).flushed 3 t = ((cfg0.win 3).blk t).view.read (Elt Ideal) (rowMass (V m c main_v0) (V m c main_v1)) := by
  show (cfg0.win 3).cut (grid0.coords t) ((dats m 0 c).after 3 t) = _
  rw [after0_3]
  unfold outsAt0
  dsimp only
  rw [out3_eq]
  refine funext fun (j : S128x1.Idx) => ?_
  show massBlock (iblk m c 0 t) (iblk m c 1 t) j = rowMass (V m c main_v0) (V m c main_v1) (((cfg0.win 3).blk t).view.emb j)
  refine (massBlock_row (iblk m c 0 t) (iblk m c 1 t) j).trans ?_
  unfold rowMass
  refine congrArg (zeroWord + ·) (Finset.sum_congr rfl fun k _ => ?_)
  obtain ⟨-, -, -, -, -, -, e0, e1⟩ := idx_facts t
  have hr : (rowOf (((cfg0.win 3).blk t).view.emb j)).val = t.val * 128 + (⟨(j 0).val, idx2_lt0 j⟩ : Fin 128).val := by
    show win0_3.index t (0 : Fin 2) * 128 + 1 * (j 0).val = t.val * 128 + (j 0).val
    omega
  rw [in0_at m c t _ k _ hr, in1_at m c t _ k _ hr]

/-- An index of a result is in point `t`'s block iff each coordinate is in the block's range. -/
theorem mem_blk2 (t : Fin cfg0.N) (i : S4096x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v2_0).slice (win0_2.rect t)).set ↔ _
  rw [View.set_slice_whole, Rect.mem_set_unit]
  exact Iff.rfl

theorem mem_blk3 (t : Fin cfg0.N) (i : S4096x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v2_1).slice (win0_3.rect t)).set ↔ _
  rw [View.set_slice_whole, Rect.mem_set_unit]
  exact Iff.rfl

/-- Row `r` is written by point `r / 128`. -/
theorem cover2 (i : S4096x1.Idx) : ∃ t : Fin cfg0.N, (cfg0.win 2).flush t = true ∧ i ∈ ((cfg0.win 2).blk t).view.set := by
  have hi0 : (i 0).val < 4096 := idx2_lt0 i
  have hi1 : (i 1).val < 1 := idx2_lt1 i
  have hN : cfg0.N = 32 := N_0
  have hlt : (i 0).val / 128 < cfg0.N := by rw [hN]; omega
  obtain ⟨-, -, -, -, e0, e1, -⟩ := idx_facts ⟨(i 0).val / 128, hlt⟩
  refine ⟨⟨(i 0).val / 128, hlt⟩, flush0_2 _, ?_⟩
  rw [mem_blk2]
  intro a
  match a with
  | ⟨0, _⟩ =>
    show win0_2.index ⟨(i 0).val / 128, hlt⟩ (0 : Fin 2) * 128 ≤ (i 0).val ∧ (i 0).val < win0_2.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_2.index ⟨(i 0).val / 128, hlt⟩ (1 : Fin 2) * 1 ≤ (i 1).val ∧ (i 1).val < win0_2.index ⟨(i 0).val / 128, hlt⟩ (1 : Fin 2) * 1 + 1
    rw [e1]; omega

theorem cover3 (i : S4096x1.Idx) : ∃ t : Fin cfg0.N, (cfg0.win 3).flush t = true ∧ i ∈ ((cfg0.win 3).blk t).view.set := by
  have hi0 : (i 0).val < 4096 := idx2_lt0 i
  have hi1 : (i 1).val < 1 := idx2_lt1 i
  have hN : cfg0.N = 32 := N_0
  have hlt : (i 0).val / 128 < cfg0.N := by rw [hN]; omega
  obtain ⟨-, -, -, -, -, -, e0, e1⟩ := idx_facts ⟨(i 0).val / 128, hlt⟩
  refine ⟨⟨(i 0).val / 128, hlt⟩, flush0_3 _, ?_⟩
  rw [mem_blk3]
  intro a
  match a with
  | ⟨0, _⟩ =>
    show win0_3.index ⟨(i 0).val / 128, hlt⟩ (0 : Fin 2) * 128 ≤ (i 0).val ∧ (i 0).val < win0_3.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_3.index ⟨(i 0).val / 128, hlt⟩ (1 : Fin 2) * 1 ≤ (i 1).val ∧ (i 1).val < win0_3.index ⟨(i 0).val / 128, hlt⟩ (1 : Fin 2) * 1 + 1
    rw [e1]; omega

/-- The first result after the region: the row-overlap column of the two matrices as the region finds them. -/
theorem final2 (c : Dev nD) : (dats m 0 c).arrAt 2 cfg0.N = rowOverlap (V m c main_v0) (V m c main_v1) :=
  (dats m 0 c).arrAt_eq_of_cover 2 (rowOverlap (V m c main_v0) (V m c main_v1)) (fun t _ => flushed2_eq m c t) cover2

/-- The second result after the region: the row-mass column. -/
theorem final3 (c : Dev nD) : (dats m 0 c).arrAt 3 cfg0.N = rowMass (V m c main_v0) (V m c main_v1) :=
  (dats m 0 c).arrAt_eq_of_cover 3 (rowMass (V m c main_v0) (V m c main_v1)) (fun t _ => flushed3_eq m c t) cover3

end Cert.KernelIdeal.DiceArrays

end
-- ==== Proof.DiceTail.lean ====
/-
  From the per-slice sums to the loss: the part of the computation that the two programs spell with the same host
  operations, as ONE function of its four inputs.

  Given, per slice (b, c, d), the overlap sum `inter`, the joint mass `total` and the slice's first target entry `first`,
  and per (b, c) the organ mask, the loss is

      dice (b, c, d)  = 1 − (2 · inter) / (total + 1)
      valid (b, c, d) = 1 if first ≠ −1 else 0
      per (b, c)      = (0 + Σ_d dice · valid) / (0 + Σ_d valid)
      loss            = (0 + Σ_{b,c} per · mask) / (0 + Σ_{b,c} mask)

  with every operation the host's exact one on the extended reals. Nothing is proved about this function: both programs
  are shown to apply it to equal inputs.
-/
import Idealize.ShloMosaic.PureOps.Ideal

noncomputable section

namespace Cert.Dice

open Idealize.ShloMosaic

/-- The shape of the slices, of the (batch, organ) pairs, and of a scalar. -/
abbrev Sslice : Shape := ⟨3, ![2, 32, 64]⟩
abbrev Sorgan : Shape := ⟨2, ![2, 32]⟩
abbrev Sscalar : Shape := ⟨0, ![]⟩

theorem scalar_pos : 0 < Sscalar.numel := by decide
theorem scalar_to_slices : Sscalar.BroadcastsInDim Sslice (![] : Fin 0 → Fin Sslice.rank) := by decide
theorem slices_to_organs : Sslice.ReducesTo [2] Sorgan := by decide
theorem organs_to_scalar : Sorgan.ReducesTo [0, 1] Sscalar := by decide

/-- A constant spread over the slices. -/
def spread (w : BitVec 32) : FVec Ideal Sslice .f32 :=
  broadcastInDim Sslice ![] scalar_to_slices (constant (F := Ideal) Sscalar .f32 w)

/-- The loss from the per-slice sums, the slices' first target entries and the organ mask. -/
def tail (inter total first : FVec Ideal Sslice .f32) (mask : (⟨Sorgan, .i32⟩ : BufTy).Contents (Elt Ideal)) :
    FVec Ideal Sscalar .f32 :=
  Host.divf (F := Ideal)
    (Host.reduceAdd (F := Ideal)
      (mulf
        (Host.divf (F := Ideal)
          (Host.reduceAdd (F := Ideal)
            (mulf
              (subf (spread 0x3F800000#32)
                (Host.divf (F := Ideal) (mulf (spread 0x40000000#32) inter) (addf total (spread 0x3F800000#32))))
              (uitofp .f32 (cmpf .une first (spread 0xBF800000#32))))
            (constant (F := Ideal) Sscalar .f32 0x00000000#32) slices_to_organs scalar_pos)
          (Host.reduceAdd (F := Ideal) (uitofp .f32 (cmpf .une first (spread 0xBF800000#32)))
            (constant (F := Ideal) Sscalar .f32 0x00000000#32) slices_to_organs scalar_pos))
        (sitofp .f32 mask))
      (constant (F := Ideal) Sscalar .f32 0x00000000#32) organs_to_scalar scalar_pos)
    (Host.reduceAdd (F := Ideal) (sitofp .f32 mask)
      (constant (F := Ideal) Sscalar .f32 0x00000000#32) organs_to_scalar scalar_pos)

end Cert.Dice

end
-- ==== Proof.DiceLoss.lean ====
/-
  The loss as ONE function of the two volumes and the organ mask: the shared tail applied to the three per-slice arrays
  (overlap sum, joint mass, first target entry). Both programs are shown to end at this function of their arguments.
-/
import proofs.«115125_j5471788335563_2_alg».proof.Proof.DiceSums
import proofs.«115125_j5471788335563_2_alg».proof.Proof.DiceTail

noncomputable section

namespace Cert.Dice

open Idealize.ShloMosaic Idealize.ShloMosaic.ValueIdx

/-- The shape of a volume. -/
abbrev Svolume : Shape := ⟨5, ![2, 32, 64, 128, 128]⟩

/-- The three per-slice arrays. -/
def interArr (P T : Svolume.Idx → EReal) : FVec Ideal Sslice .f32 := fun i => inter P T (i 0) (i 1) (i 2)
def totalArr (P T : Svolume.Idx → EReal) : FVec Ideal Sslice .f32 := fun i => total P T (i 0) (i 1) (i 2)
def firstArr (T : Svolume.Idx → EReal) : FVec Ideal Sslice .f32 := fun i => T (at5 (i 0) (i 1) (i 2) 0)

/-- The loss. -/
def loss (P T : Svolume.Idx → EReal) (mask : (⟨Sorgan, .i32⟩ : BufTy).Contents (Elt Ideal)) : FVec Ideal Sscalar .f32 :=
  tail (interArr P T) (totalArr P T) (firstArr T) mask

end Cert.Dice

end
-- ==== Proof.KernelRun.lean ====
/-
  The kernel program's run at the ideal instance, read: its result is the loss of its arguments.

  Before the region the two volumes are recast as 4096 × 16384 matrices; row (b · 32 + c) · 64 + d of a matrix is slice
  (b, c, d) of its volume, entry for entry, so the region's two result columns, recast as 2 × 32 × 64 arrays, are the
  per-slice overlap sums and joint masses. After the region the program takes the first target entry of each slice
  straight from the volume and applies the shared tail.
-/
import proofs.«115125_j5471788335563_2_alg».proof.Proof.KernelArrays
import proofs.«115125_j5471788335563_2_alg».proof.Proof.DiceLoss
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.DiceRun

open Cert.KernelIdeal Cert.KernelIdeal.Gen Idealize.ShloMosaic.ValueIdx Cert.Dice Cert.KernelIdeal.DiceArrays
open Idealize.ShloMosaic.StableHlo

variable (m : (ℓ : Loc nD τ sig) → Buf (Elt Ideal) ℓ) (ρ : Dev nD → PrngReg)

/-! ### The matrices the region finds are the volumes recast -/

theorem V_main_v0 (c : Dev nD) :
    (V m c main_v0 : S4096x16384.Idx → EReal)
      = shapeCast S4096x16384 (m ((c : Thread nD τ).loc main_arg0)) shapeCasts_S2x32x64x128x128_S4096x16384 := by
  show StableHlo.after hostOps0 (fun b => m (c, b)) (Proc.devRef .tc main_v0) = _
  after_results
  rfl

theorem V_main_v1 (c : Dev nD) :
    (V m c main_v1 : S4096x16384.Idx → EReal)
      = shapeCast S4096x16384 (m ((c : Thread nD τ).loc main_arg1)) shapeCasts_S2x32x64x128x128_S4096x16384 := by
  show StableHlo.after hostOps0 (fun b => m (c, b)) (Proc.devRef .tc main_v1) = _
  after_results
  rfl

/-- Entry `k` of row `(b · 32 + c) · 64 + d` of a recast volume is entry `k` of slice `(b, c, d)`. -/
theorem recast_at (P : S2x32x64x128x128.Idx → EReal) (h : S2x32x64x128x128.ShapeCasts S4096x16384)
    (b : Fin 2) (c : Fin 32) (d : Fin 64) (k : Fin 16384) (r : Fin 4096) (hr : r.val = (b.val * 32 + c.val) * 64 + d.val) :
    shapeCast S4096x16384 P h (ix2 r k) = P (at5 b c d k) := by
  refine shapeCast_apply P h (ix2 r k) (at5 b c d k) ?_
  rw [Shape.rowMajor_val_five, Shape.rowMajor_val_two]
  have hk := k.isLt
  show ((((b.val * 32 + c.val) * 64 + d.val) * 128 + k.val / 128) * 128 + k.val % 128) = r.val * 16384 + k.val
  omega

/-! ### What the tail reads -/

theorem tail_reads_overlap (c : Dev nD) :
    Pipeline.withArrays (cfgs 0).spec c (V0 m c) (fun w => (dats m 0 c).arrAt w (cfgs 0).N) (Proc.devRef .tc main_v2_0)
      = rowOverlap (V m c main_v0) (V m c main_v1) :=
  (Pipeline.withArrays_arr spec0 launch0.win.arr_inj c _ _ 2).trans (final2 m c)

theorem tail_reads_mass (c : Dev nD) :
    Pipeline.withArrays (cfgs 0).spec c (V0 m c) (fun w => (dats m 0 c).arrAt w (cfgs 0).N) (Proc.devRef .tc main_v2_1)
      = rowMass (V m c main_v0) (V m c main_v1) :=
  (Pipeline.withArrays_arr spec0 launch0.win.arr_inj c _ _ 3).trans (final3 m c)

theorem tail_reads_target (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

theorem tail_reads_mask (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-! ### The three arrays the tail is applied to are the per-slice arrays of the volumes -/

theorem overlap_slices (c : Dev nD) (h : S4096x1.ShapeCasts S2x32x64) :
    shapeCast S2x32x64 (rowOverlap (V m c main_v0) (V m c main_v1)) h
      = interArr (m ((c : Thread nD τ).loc main_arg0)) (m ((c : Thread nD τ).loc main_arg1)) := by
  funext i
  obtain ⟨b, c', d, rfl⟩ : ∃ (b : Fin 2) (c' : Fin 32) (d : Fin 64), i = ix3 b c' d := ⟨i 0, i 1, i 2, eq_ix3 i⟩
  have hb := b.isLt; have hc := c'.isLt; have hd := d.isLt
  have hlt : (b.val * 32 + c'.val) * 64 + d.val < 4096 := by omega
  refine (shapeCast_apply _ h (ix3 b c' d) (ix2 (⟨(b.val * 32 + c'.val) * 64 + d.val, hlt⟩ : Fin 4096) (0 : Fin 1)) ?_).trans ?_
  · rw [Shape.rowMajor_val_two, Shape.rowMajor_val_three]
    show ((b.val * 32 + c'.val) * 64 + d.val) * 1 + 0 = (b.val * 32 + c'.val) * 64 + d.val
    omega
  · show zeroWord + _ = zeroWord + _
    refine congrArg (zeroWord + ·) (Finset.sum_congr rfl fun k _ => ?_)
    rw [V_main_v0, V_main_v1]
    exact congrArg₂ (fun x y => Ideal.logistic x * y)
      (recast_at _ _ b c' d k _ rfl) (recast_at _ _ b c' d k _ rfl)

theorem mass_slices (c : Dev nD) (h : S4096x1.ShapeCasts S2x32x64) :
    shapeCast S2x32x64 (rowMass (V m c main_v0) (V m c main_v1)) h
      = totalArr (m ((c : Thread nD τ).loc main_arg0)) (m ((c : Thread nD τ).loc main_arg1)) := by
  funext i
  obtain ⟨b, c', d, rfl⟩ : ∃ (b : Fin 2) (c' : Fin 32) (d : Fin 64), i = ix3 b c' d := ⟨i 0, i 1, i 2, eq_ix3 i⟩
  have hb := b.isLt; have hc := c'.isLt; have hd := d.isLt
  have hlt : (b.val * 32 + c'.val) * 64 + d.val < 4096 := by omega
  refine (shapeCast_apply _ h (ix3 b c' d) (ix2 (⟨(b.val * 32 + c'.val) * 64 + d.val, hlt⟩ : Fin 4096) (0 : Fin 1)) ?_).trans ?_
  · rw [Shape.rowMajor_val_two, Shape.rowMajor_val_three]
    show ((b.val * 32 + c'.val) * 64 + d.val) * 1 + 0 = (b.val * 32 + c'.val) * 64 + d.val
    omega
  · show zeroWord + _ = zeroWord + _
    refine congrArg (zeroWord + ·) (Finset.sum_congr rfl fun k _ => ?_)
    rw [V_main_v0, V_main_v1]
    exact congrArg₂ (fun x y => Ideal.logistic x + y)
      (recast_at _ _ b c' d k _ rfl) (recast_at _ _ b c' d k _ rfl)

theorem first_slices (T : S2x32x64x128x128.Idx → EReal) (hs : S2x32x64x128x128.Slices ![0, 0, 0, 0, 0] S2x32x64x1x1)
    (h : S2x32x64x1x1.ShapeCasts S2x32x64) :
    shapeCast S2x32x64 (extractStridedSlice S2x32x64x1x1 ![0, 0, 0, 0, 0] T hs) h = firstArr T := by
  funext i
  obtain ⟨b, c', d, rfl⟩ : ∃ (b : Fin 2) (c' : Fin 32) (d : Fin 64), i = ix3 b c' d := ⟨i 0, i 1, i 2, eq_ix3 i⟩
  refine (shapeCast_apply _ h (ix3 b c' d) (ix5 b c' d (0 : Fin 1) (0 : Fin 1)) ?_).trans ?_
  · rw [Shape.rowMajor_val_five, Shape.rowMajor_val_three]
    show (((b.val * 32 + c'.val) * 64 + d.val) * 1 + 0) * 1 + 0 = (b.val * 32 + c'.val) * 64 + d.val
    omega
  · refine extractStridedSlice_apply ![0, 0, 0, 0, 0] T hs (ix5 b c' d (0 : Fin 1) (0 : Fin 1)) (at5 b c' d 0) fun a => ?_
    match a with
    | ⟨0, _⟩ => show b.val = 0 + b.val; omega
    | ⟨1, _⟩ => show c'.val = 0 + c'.val; omega
    | ⟨2, _⟩ => show d.val = 0 + d.val; omega
    | ⟨3, _⟩ => rfl
    | ⟨4, _⟩ => rfl

/-! ### The result -/

/-- What the host lines after the region leave in the result buffer: the loss of the arguments. -/
theorem result_eq (c : Dev nD) :
    Pipeline.afterTail₀ cfgs (dats m) 0 (V0 m) [hostOps1] c main_v25
      = loss (m ((c : Thread nD τ).loc main_arg0)) (m ((c : Thread nD τ).loc main_arg1)) (m ((c : Thread nD τ).loc main_arg2)) := by
  unfold Pipeline.afterTail₀
  show StableHlo.after hostOps1 _ (Proc.devRef .tc main_v25) = _
  after_results_simp
  rw [tail_reads_overlap, tail_reads_mass, tail_reads_target, tail_reads_mask]
  unfold loss
  rw [← overlap_slices m c shapeCasts_S4096x1_S2x32x64, ← mass_slices m c shapeCasts_S4096x1_S2x32x64,
    ← first_slices (m ((c : Thread nD τ).loc main_arg1)) slices_S2x32x64x128x128_S2x32x64x1x1_0_0_0_0_0 shapeCasts_S2x32x64x1x1_S2x32x64]
  rfl

/-- The run, read: the result buffer at the loss of the arguments, the arguments unchanged. -/
theorem run : θ_run defs (onTc (τ := τ) (main (F := Ideal))) ⟨m, fun _ => 0, ρ⟩ fun r => ∀ c : Dev nD,
      r.2.mem ((c.tc : Thread nD τ).loc main_v25)
        = loss (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.DiceRun

end
-- ==== Proof.RefStages.lean ====
/-
  The reference program's result, read at the ideal instance: it is the shared tail (the loss from the per-slice
  sums) applied to three arrays over the slices, and each of those arrays is, slice by slice,

    * the overlap sum 0 + Σₖ σ(p k) · t k — the reference spells σ as 1 / (1 + exp(−x)) with the host's negate,
      exponential, add and divide, which on the extended reals is the logistic function by definition;
    * the joint mass, which the reference computes as (0 + Σₖ σ(p k)) + (0 + Σₖ t k): the sum of a termwise sum is the
      sum of the sums;
    * the slice's first target entry.

  Entry k of slice (b, c, d) of the volume recast as 2 × 32 × 64 × 16384 is the volume's entry at row k / 128 and
  column k % 128 of that slice: both have the same row-major position.
-/
import proofs.«115125_j5471788335563_2_alg».proof.Proof.Gen.ReferenceIdeal.Read
import proofs.«115125_j5471788335563_2_alg».proof.Proof.DiceSums
import proofs.«115125_j5471788335563_2_alg».proof.Proof.DiceTail
import proofs.«115125_j5471788335563_2_alg».proof.Proof.DiceLoss

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The result is the shared tail of the three per-slice arrays and the mask. -/
theorem result_eq_tail (x0 x1 : (⟨S2x32x64x128x128, .f32⟩ : BufTy).Contents (Elt Ideal))
    (x2 : (⟨S2x32, .i32⟩ : BufTy).Contents (Elt Ideal)) :
    val_main_v33 (F := Ideal) x0 x1 x2
      = Cert.Dice.tail (val_main_v9 (F := Ideal) x0 x1) (val_main_v12 (F := Ideal) x0 x1) (val_main_v21 (F := Ideal) x1) x2 := rfl

/-- Entry `k` of slice `(b, c, d)` of the recast volume sits, in the volume, at row `k / 128`, column `k % 128`. -/
theorem place (b : Fin 2) (c : Fin 32) (d : Fin 64) (k : Fin 16384) :
    idx_main_v6 (idx_main_v9 (ix3 b c d) k) = Cert.Dice.at5 b c d k := by
  have hb := b.isLt; have hc := c.isLt; have hd := d.isLt; have hk := k.isLt
  funext a
  apply Fin.ext
  match a with
  | ⟨0, _⟩ => show (((b.val * 32 + c.val) * 64 + d.val) * 16384 + k.val) / 33554432 = b.val; omega
  | ⟨1, _⟩ => show (((b.val * 32 + c.val) * 64 + d.val) * 16384 + k.val) / 1048576 % 32 = c.val; omega
  | ⟨2, _⟩ => show (((b.val * 32 + c.val) * 64 + d.val) * 16384 + k.val) / 16384 % 64 = d.val; omega
  | ⟨3, _⟩ => show (((b.val * 32 + c.val) * 64 + d.val) * 16384 + k.val) / 128 % 128 = k.val / 128; omega
  | ⟨4, _⟩ => show (((b.val * 32 + c.val) * 64 + d.val) * 16384 + k.val) % 128 = k.val % 128; omega

/-- The reference's σ: the host's 1 / (1 + exp(−x)) is the logistic function. -/
theorem sigmoid_stage (x0 : (⟨S2x32x64x128x128, .f32⟩ : BufTy).Contents (Elt Ideal)) (j : S2x32x64x128x128.Idx) :
    val_main_v5 (F := Ideal) x0 j = Ideal.logistic (x0 j) := by
  rw [val_main_v5_apply, val_main_v4_apply, val_main_cst_0_apply, val_main_v3_apply, val_main_v2_apply,
    val_main_cst_apply, val_main_v1_apply, val_main_v0_apply]
  simp only [Ideal.ofBits_def, Cert.Dice.ofBits_one, Ideal.hostDivf_def, Ideal.addf_def, Ideal.hostUnary_exp_def,
    Ideal.hostNegf_def, Ideal.negf_def]
  rfl

/-- The overlap array, slice by slice. -/
theorem inter_eq (x0 x1 : (⟨S2x32x64x128x128, .f32⟩ : BufTy).Contents (Elt Ideal)) (b : Fin 2) (c : Fin 32) (d : Fin 64) :
    val_main_v9 (F := Ideal) x0 x1 (ix3 b c d) = Cert.Dice.inter x0 x1 b c d := by
  rw [val_main_v9_apply]
  unfold Cert.Dice.inter
  refine congrArg₂ (· + ·) rfl (Finset.sum_congr rfl fun k _ => ?_)
  rw [val_main_v8_apply, val_main_v6_apply, val_main_v7_apply, sigmoid_stage]
  show Ideal.logistic (x0 (idx_main_v6 (idx_main_v9 (ix3 b c d) k))) * x1 (idx_main_v6 (idx_main_v9 (ix3 b c d) k)) = _
  rw [place]

/-- The joint-mass array, slice by slice. -/
theorem total_eq (x0 x1 : (⟨S2x32x64x128x128, .f32⟩ : BufTy).Contents (Elt Ideal)) (b : Fin 2) (c : Fin 32) (d : Fin 64) :
    val_main_v12 (F := Ideal) x0 x1 (ix3 b c d) = Cert.Dice.total x0 x1 b c d := by
  rw [val_main_v12_apply, val_main_v10_apply, val_main_v11_apply]
  unfold Cert.Dice.total
  rw [Cert.Dice.split_total]
  refine congrArg₂ (· + ·) (congrArg₂ (· + ·) rfl (Finset.sum_congr rfl fun k _ => ?_))
    (congrArg₂ (· + ·) rfl (Finset.sum_congr rfl fun k _ => ?_))
  · rw [val_main_v6_apply, sigmoid_stage]
    show Ideal.logistic (x0 (idx_main_v6 (idx_main_v9 (ix3 b c d) k))) = _
    rw [place]
  · rw [val_main_v7_apply]
    show x1 (idx_main_v6 (idx_main_v9 (ix3 b c d) k)) = _
    rw [place]

/-- The first-entry array, slice by slice. -/
theorem first_eq (x1 : (⟨S2x32x64x128x128, .f32⟩ : BufTy).Contents (Elt Ideal)) (b : Fin 2) (c : Fin 32) (d : Fin 64) :
    val_main_v21 (F := Ideal) x1 (ix3 b c d) = x1 (Cert.Dice.at5 b c d 0) := by
  rw [val_main_v21_apply, val_main_v20_apply, val_main_v7_apply]
  have hb := b.isLt; have hc := c.isLt; have hd := d.isLt
  have e : idx_main_v20 (idx_main_v21 (ix3 b c d)) = idx_main_v9 (ix3 b c d) (0 : Fin 16384) := by
    funext a
    apply Fin.ext
    match a with
    | ⟨0, _⟩ => show ((b.val * 32 + c.val) * 64 + d.val) / 2048 = b.val; omega
    | ⟨1, _⟩ => show ((b.val * 32 + c.val) * 64 + d.val) / 64 % 32 = c.val; omega
    | ⟨2, _⟩ => show ((b.val * 32 + c.val) * 64 + d.val) / 1 % 64 = d.val; omega
    | ⟨3, _⟩ => rfl
  show x1 (idx_main_v6 (idx_main_v20 (idx_main_v21 (ix3 b c d)))) = _
  rw [e, place]

/-- The reference's result is the loss of its arguments. -/
theorem result_eq_loss (x0 x1 : (⟨S2x32x64x128x128, .f32⟩ : BufTy).Contents (Elt Ideal))
    (x2 : (⟨S2x32, .i32⟩ : BufTy).Contents (Elt Ideal)) :
    val_main_v33 (F := Ideal) x0 x1 x2 = Cert.Dice.loss x0 x1 x2 := by
  rw [result_eq_tail]
  unfold Cert.Dice.loss
  have e1 : val_main_v9 (F := Ideal) x0 x1 = Cert.Dice.interArr x0 x1 := by
    funext i
    obtain ⟨b, c, d, rfl⟩ : ∃ (b : Fin 2) (c : Fin 32) (d : Fin 64), i = ix3 b c d := ⟨i 0, i 1, i 2, eq_ix3 i⟩
    exact inter_eq x0 x1 b c d
  have e2 : val_main_v12 (F := Ideal) x0 x1 = Cert.Dice.totalArr x0 x1 := by
    funext i
    obtain ⟨b, c, d, rfl⟩ : ∃ (b : Fin 2) (c : Fin 32) (d : Fin 64), i = ix3 b c d := ⟨i 0, i 1, i 2, eq_ix3 i⟩
    exact total_eq x0 x1 b c d
  have e3 : val_main_v21 (F := Ideal) x1 = Cert.Dice.firstArr x1 := by
    funext i
    obtain ⟨b, c, d, rfl⟩ : ∃ (b : Fin 2) (c : Fin 32) (d : Fin 64), i = ix3 b c d := ⟨i 0, i 1, i 2, eq_ix3 i⟩
    exact first_eq x1 b c d
  rw [e1, e2, e3]

end Cert.ReferenceIdeal.RefValue

end
-- ==== Proof.lean ====
/-
  A dice loss computed by a row-blocked reduction kernel, against its plain reference, over the extended reals.

  Inputs: a prediction volume p and a target volume t, both 2 × 32 × 64 × 128 × 128, and a 2 × 32 organ mask. A slice is
  one (batch, organ, depth) triple with its 128 · 128 = 16384 entries. With σ(x) = 1 / (1 + e⁻ˣ), both programs compute

      inter = Σₖ σ(pₖ) · tₖ ,   total = Σₖ σ(pₖ) + Σₖ tₖ        per slice,
      dice  = 1 − 2 · inter / (total + 1),   valid = [t₀ ≠ −1]   per slice,
      per   = Σ_d dice · valid / Σ_d valid                        per (batch, organ),
      loss  = Σ per · mask / Σ mask.

  The kernel recasts the volumes as 4096 × 16384 matrices (a slice per row), walks each row in eight runs of 2048
  columns, and accumulates Σ σ(p) · t and Σ (σ(p) + t) run by run from +0.0; the reference sums each whole row at once,
  σ(p) and t separately, with σ spelled 1 / (1 + exp(−x)). On the extended reals the logistic function IS that
  expression, a sum of 16384 consecutive terms is the sum of its eight runs taken in order, and the sum of a termwise sum
  is the sum of the sums — commutativity and associativity of addition only, so no entry needs to be finite. From the
  per-slice sums on, the two programs apply the same host operations, carried here as one function of its inputs.

  The three frames: the kernel's two (as printed and idealized) are the generated frame certificates; the reference's is
  its generated run with the result dropped. The idealization rewrote nothing, so it is preserved trivially.
-/
import proofs.«115125_j5471788335563_2_alg».proof.Defs
import proofs.«115125_j5471788335563_2_alg».proof.Proof.Gen.Kernel
import proofs.«115125_j5471788335563_2_alg».proof.Proof.Gen.Kernel.Frame
import proofs.«115125_j5471788335563_2_alg».proof.Proof.Gen.KernelIdeal
import proofs.«115125_j5471788335563_2_alg».proof.Proof.Gen.KernelIdeal.Frame
import proofs.«115125_j5471788335563_2_alg».proof.Proof.Gen.ReferenceIdeal
import proofs.«115125_j5471788335563_2_alg».proof.Proof.Gen.ReferenceIdeal.Run
import proofs.«115125_j5471788335563_2_alg».proof.Proof.Gen.Pre_finite_inputs
import proofs.«115125_j5471788335563_2_alg».proof.Proof.KernelRun
import proofs.«115125_j5471788335563_2_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of their arguments in the result buffer; the arguments agree. -/
theorem algebraic : Cert.algebraic_KernelIdeal_ReferenceIdeal := by
  intro m ρ m' ρ' _ hagree
  refine ⟨fun c => Cert.Dice.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.DiceRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq _ _ _).trans ?_
  refine (Cert.ReferenceIdeal.RefValue.result_eq_loss _ _ _).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
